-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S16x32 : Shape := ⟨2, ![16, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x16 .f32) (main_arg1 : IVec S2x3200000 32) (main_arg2 : FVec F S16x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x16 : Shape := ⟨2, ![100000, 16]⟩
abbrev S2x3200000 : Shape := ⟨2, ![2, 3200000]⟩
abbrev S16x32 : Shape := ⟨2, ![16, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x16 : Shape := ⟨2, ![10000, 16]⟩
abbrev S10000x32 : Shape := ⟨2, ![10000, 32]⟩
abbrev S3300000x32 : Shape := ⟨2, ![3300000, 32]⟩
abbrev S1x32 : Shape := ⟨2, ![1, 32]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 86
  | .vmem => 18
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x32, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x32, .f32⟩
  | .hbm, ⟨58, _⟩ => ⟨S3300000x1, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x32, .f32⟩
  | .hbm, ⟨76, _⟩ => ⟨S3300000x1, .f32⟩
  | .hbm, ⟨77, _⟩ => ⟨S3300000x32, .f32⟩
  | .hbm, ⟨78, _⟩ => ⟨S3300000x32, .f32⟩
  | .hbm, ⟨79, _⟩ => ⟨S_, .f32⟩
  | .hbm, ⟨80, _⟩ => ⟨S100000x32, .f32⟩
  | .hbm, ⟨81, _⟩ => ⟨S3300000x1, .i32⟩
  | .hbm, ⟨82, _⟩ => ⟨S100000x32, .f32⟩
  | .hbm, ⟨83, _⟩ => ⟨S1x32, .f32⟩
  | .hbm, ⟨84, _⟩ => ⟨S1x1, .f32⟩
  | .hbm, ⟨85, _⟩ => ⟨S100000x1, .f32⟩
  | .local _ .vmem, ⟨0, _⟩ => ⟨S10000x16, .f32⟩
  | .local _ .vmem, ⟨1, _⟩ => ⟨S10000x16, .f32⟩
  | .local _ .vmem, ⟨2, _⟩ => ⟨S16x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S1x32, .f32⟩
  | .local _ .vmem, ⟨14, _⟩ => ⟨S32x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x16_S16x32_S10000x32_1_0_0_1_n_n_wf : DotDims.WF S10000x16 S16x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x32_S10000x32_1_0_0_1_n_n_wf : DotDims.WF S10000x32 S32x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x1.size a ≤ S32x1.size a
  hwx2_2 : ∀ i : grid2.Coords, EltTy.bits .f32 = 32 ∨ (Rect.block (s := S32x1) S32x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S16x32 : Shape := ⟨2, ![16, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x32, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x32, .f32⟩
  | .hbm, ⟨58, _⟩ => ⟨S3300000x1, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x32, .f32⟩
  | .hbm, ⟨81, _⟩ => ⟨S3300000x1, .f32⟩
  | .hbm, ⟨82, _⟩ => ⟨S3300000x32, .f32⟩
  | .hbm, ⟨83, _⟩ => ⟨S3300000x32, .f32⟩
  | .hbm, ⟨84, _⟩ => ⟨S_, .f32⟩
  | .hbm, ⟨85, _⟩ => ⟨S100000x32, .f32⟩
  | .hbm, ⟨86, _⟩ => ⟨S3300000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S_, .f32⟩
  | .hbm, ⟨92, _⟩ => ⟨S100000x32, .f32⟩
  | .hbm, ⟨93, _⟩ => ⟨S100000x32, .f32⟩
  | .hbm, ⟨94, _⟩ => ⟨S100000x1, .f32⟩
  | .hbm, ⟨95, _⟩ => ⟨S1x1, .f32⟩
  | .hbm, ⟨96, _⟩ => ⟨S100000x1, .f32⟩
  | .hbm, ⟨97, _⟩ => ⟨S100000x1, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x16_S16x32_S100000x32_1_0_0_1_n_n_wf : DotDims.WF S100000x16 S16x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel's run with its result named: every weakly fair execution of @main ends with the result array at
  what the last region's write-backs leave in it (the last boundary's contents `W8` at the result's buffer) and the
  eight arguments as launched. The run is the library's launch over the program's eight segments — five stretches of
  host operations and three regions — with the proof data, the boundary contents and the per-region records of the
  generated frame module; the final thread state holds every unscoped buffer at `W8`, and the post reads the result's
  buffer there beside the arguments'.
-/
import proofs.«163684_j48533130445249_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result's buffer read at the last boundary's contents. -/
theorem run_value : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Gen

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«163684_j48533130445249_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibDenseLayers.lean ====
/-
  One dense layer, x · W + b, read at an entry on the extended reals, in the two spellings it has here: a pipelined
  kernel body's (a matrix product of the operands narrowed to bf16 into the zero accumulator, plus the bias row kept as a
  [1, N] block and repeated down the rows) and a host program's (a dot_general plus the same row repeated by a
  broadcast_in_dim).  On the extended reals a change of float format is the identity and both products are the plain
  sum over the contracted axis, so both spellings read, at (r, g), as  Σₖ x (r, k) · W (k, g) + b (0, g).

  For any extents R, K, N.  Also here: the same for a second product h · W without bias (`dotAt`), the host's zero
  matrix read at an entry, a bias vector made a [1, N] row by a reshape against the row a broadcast_in_dim along axis 1
  makes of it (`row_of_vector`), and the whole-matrix layer functions the entries belong to: x · W + b (`affLayer`),
  its rectification (`projLayer`) and the rectified two-input layer (a · Wl + b) + h · Wr (`sageLayer`).
-/
import Idealize.ShloMosaic.Lib.Pipeline.Value
import Idealize.ShloMosaic.Lib.ValueIdx
import Idealize.ShloMosaic.PureOps.Ideal.Laws
import proofs.«163684_j48533130445249_1_alg».proof.Proof.LibPlainMatmul
import proofs.«163684_j48533130445249_1_alg».proof.Proof.LibPlainDot
import proofs.«163684_j48533130445249_1_alg».proof.Proof.LibHostRows
import proofs.«163684_j48533130445249_1_alg».proof.Proof.LibBlockLayout

noncomputable section

open scoped BigOperators

namespace Cert.SageLayers

open Idealize.ShloMosaic Idealize.ShloMosaic.ValueIdx

variable {R K N : ℕ}

/-- Entry (r, g) of x · W + b, the bias a [1, N] row. -/
def affineAt (A : (⟨2, ![R, K]⟩ : Shape).Idx → EReal) (W : (⟨2, ![K, N]⟩ : Shape).Idx → EReal)
    (b : (⟨2, ![1, N]⟩ : Shape).Idx → EReal) (r : Fin R) (g : Fin N) : EReal :=
  (∑ k : Fin K, A (ix2 r k) * W (ix2 k g)) + b (ix2 (0 : Fin 1) g)

/-- The zero word of f32, on the extended reals. -/
abbrev zeroF : EReal := Ideal.ofBits .f32 0x00000000#32

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- The layer x · W + b as a whole matrix. -/
def affLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => affineAt A W b (i 0) (i 1)

/-- The rectified layer max (x · W + b, 0) as a whole matrix. -/
def projLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => max (affineAt A W b (i 0) (i 1)) zeroF

/-- The rectified two-input layer max ((a · Wl + b) + h · Wr, 0) as a whole matrix. -/
def sageLayer {K' : ℕ} (A : (⟨2, ![R, K]⟩ : Shape).Idx → EReal) (H : (⟨2, ![R, K']⟩ : Shape).Idx → EReal)
    (Wl : (⟨2, ![K, N]⟩ : Shape).Idx → EReal) (b : (⟨2, ![1, N]⟩ : Shape).Idx → EReal)
    (Wr : (⟨2, ![K', N]⟩ : Shape).Idx → EReal) : (⟨2, ![R, N]⟩ : Shape).Idx → EReal :=
  fun i => max (affineAt A Wl b (i 0) (i 1) + dotAt H Wr (i 0) (i 1)) zeroF

/-- The kernel body's second product, read at an entry. -/
theorem kernel_dot_at (H : FVec Ideal ⟨2, ![R, K]⟩ .f32) (W : FVec Ideal ⟨2, ![K, N]⟩ .f32)
    (h1 : FTy.bf16.bits < FTy.f32.bits) (h2 : FTy.bf16.bits < FTy.f32.bits) (r : Fin R) (g : Fin N) :
    matmul (DotDims.plain R K N) none (truncf .bf16 H h1) (truncf .bf16 W h2) (constant ⟨2, ![R, N]⟩ .f32 0x00000000#32) (ix2 r g)
      = dotAt H W r g :=
  Cert.LibPlainMatmul.matmul_zero_apply none (truncf .bf16 H h1) (truncf .bf16 W h2) r g

/-- The host's product read at an entry. -/
theorem host_dot_at (H : FVec Ideal ⟨2, ![R, K]⟩ .f32) (W : FVec Ideal ⟨2, ![K, N]⟩ .f32) (r : Fin R) (g : Fin N) :
    Host.dotGeneral (DotDims.plain R K N) none H W (ix2 r g) = dotAt H W r g :=
  Cert.LibPlainDot.dotGeneral_apply none H W r g

/-- The host's zero matrix read at an entry. -/
theorem host_zero_at {s : Shape} (d : Fin (⟨0, ![]⟩ : Shape).rank → Fin s.rank) (hb : (⟨0, ![]⟩ : Shape).BroadcastsInDim s d)
    (i : s.Idx) : broadcastInDim s d hb (constant (F := Ideal) ⟨0, ![]⟩ .f32 0x00000000#32) i = zeroF :=
  broadcastInDim_apply d hb _ i ix0 (fun a => a.elim0)

/-- The kernel body's spelling of the layer before its rectifier. -/
theorem kernel_affine_at (A : FVec Ideal ⟨2, ![R, K]⟩ .f32) (W : FVec Ideal ⟨2, ![K, N]⟩ .f32)
    (b : FVec Ideal ⟨2, ![1, N]⟩ .f32) (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 A h1) (truncf .bf16 W h2) (constant ⟨2, ![R, N]⟩ .f32 0x00000000#32))
        (broadcastTo ⟨2, ![R, N]⟩ (shapeCast ⟨2, ![1, N]⟩ b hc) hb) (ix2 r g)
      = affineAt A W b r g := by
  rw [addf_apply]
  refine congrArg₂ (· + ·) ?_ ?_
  · exact Cert.LibPlainMatmul.matmul_zero_apply none (truncf .bf16 A h1) (truncf .bf16 W h2) r g
  · rw [Cert.LibBlockLayout.rowBroadcast_at, shapeCast_self]

/-- The host's spelling of the layer before its rectifier, the bias given as a vector. -/
theorem host_affine_at (A : FVec Ideal ⟨2, ![R, K]⟩ .f32) (W : FVec Ideal ⟨2, ![K, N]⟩ .f32)
    (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (Host.dotGeneral (DotDims.plain R K N) none A W)
        (broadcastInDim ⟨2, ![R, N]⟩ d2 hb2 (broadcastInDim ⟨2, ![1, N]⟩ d1 hb1 b)) (ix2 r g)
      = affineAt A W (broadcastInDim ⟨2, ![1, N]⟩ d1 hb1 b) r g := by
  rw [addf_apply]
  refine congrArg₂ (· + ·) ?_ ?_
  · exact Cert.LibPlainDot.dotGeneral_apply none A W r g
  · exact Cert.LibHostRows.bcast_1b_ab_at d2 hd20 hd21 hb2 _ r g

/-- A vector kept as a [1, N] row by a reshape is the same row a broadcast_in_dim along axis 1 makes of it. -/
theorem row_of_vector (b : (⟨1, ![N]⟩ : Shape).Idx → EReal)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (hc : (⟨1, ![N]⟩ : Shape).ShapeCasts ⟨2, ![1, N]⟩) :
    broadcastInDim ⟨2, ![1, N]⟩ d1 hb1 b = shapeCast ⟨2, ![1, N]⟩ b hc := by
  funext i
  obtain ⟨u, j, rfl⟩ : ∃ (u : Fin 1) (j : Fin N), i = ix2 u j := ⟨i 0, i 1, eq_ix2 i⟩
  rw [Cert.LibHostRows.bcast_b_1b_at d1 hd1 hb1 b u j]
  refine (shapeCast_apply b hc (ix2 u j) (ix1 j) ?_).symm
  rw [Shape.rowMajor_val_one, Shape.rowMajor_val_two]
  have hu : u.val = 0 := by omega
  show j.val = u.val * N + j.val
  rw [hu, Nat.zero_mul, Nat.zero_add]

end Cert.SageLayers

end
-- ==== Proof.LibLayerForms.lean ====
/-
  Three identities on the extended reals between a pipelined kernel's row-block layers and a host program's spellings
  of the same layers, for any extents R, K, N:
    * a dense layer x · W + b whose bias row is zero is the plain product x · W (adding the zero word changes nothing);
    * max (a + b, 0) with the bias a vector reshaped to a [1, N] row is the host's "add the vector broadcast to every
      row, then the maximum with the zero matrix";
    * a dense layer x · W + b with the bias a reshaped vector is the host's product plus the vector broadcast to every
      row.
  Each is read entry by entry: both products are the same finite sum over the contracted axis, a broadcast row read at
  (r, g) is the vector at g, and the zero matrix read anywhere is the zero word.
-/
import proofs.«163684_j48533130445249_1_alg».proof.Proof.LibDenseLayers

noncomputable section

open scoped BigOperators

namespace Cert.LayerForms

open Idealize.ShloMosaic Idealize.ShloMosaic.ValueIdx Cert.SageLayers

variable {R K N : ℕ}

/-- Row r, column g of max (a + bias row, 0), as a whole matrix. -/
def reluRows (A : (⟨2, ![R, N]⟩ : Shape).Idx → EReal) (b : (⟨2, ![1, N]⟩ : Shape).Idx → EReal) :
    (⟨2, ![R, N]⟩ : Shape).Idx → EReal :=
  fun i => max (A i + b (ix2 (0 : Fin 1) (i 1))) zeroF

/-- A dense layer whose bias row is zero everywhere is the host's plain product. -/
theorem dense_zero_bias (A : FVec Ideal ⟨2, ![R, K]⟩ .f32) (W : FVec Ideal ⟨2, ![K, N]⟩ .f32)
    (z : (⟨2, ![1, N]⟩ : Shape).Idx → EReal) (hz : ∀ g : Fin N, z (ix2 (0 : Fin 1) g) = zeroF) :
    affLayer A W z = Host.dotGeneral (DotDims.plain R K N) none A W := by
  funext i
  obtain ⟨r, g, rfl⟩ : ∃ (r : Fin R) (g : Fin N), i = ix2 r g := ⟨i 0, i 1, eq_ix2 i⟩
  rw [host_dot_at]
  show (∑ k : Fin K, A (ix2 r k) * W (ix2 k g)) + z (ix2 (0 : Fin 1) g) = dotAt A W r g
  rw [hz g]
  show (∑ k : Fin K, A (ix2 r k) * W (ix2 k g)) + Ideal.ofBits .f32 0x00000000#32 = dotAt A W r g
  rw [Ideal.ofBits_zero_f32, add_zero]
  rfl

/-- max (a + b, 0) with the bias a reshaped vector is the host's spelling of it. -/
theorem relu_rows_host (A : FVec Ideal ⟨2, ![R, N]⟩ .f32) (b : FVec Ideal ⟨1, ![N]⟩ .f32)
    (hc : (⟨1, ![N]⟩ : Shape).ShapeCasts ⟨2, ![1, N]⟩)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank) (hb0 : (⟨0, ![]⟩ : Shape).BroadcastsInDim ⟨2, ![R, N]⟩ d0) :
    reluRows A (shapeCast ⟨2, ![1, N]⟩ b hc)
      = maximumf (addf A (broadcastInDim ⟨2, ![R, N]⟩ d2 hb2 (broadcastInDim ⟨2, ![1, N]⟩ d1 hb1 b)))
          (broadcastInDim ⟨2, ![R, N]⟩ d0 hb0 (constant (F := Ideal) ⟨0, ![]⟩ .f32 0x00000000#32)) := by
  funext i
  obtain ⟨r, g, rfl⟩ : ∃ (r : Fin R) (g : Fin N), i = ix2 r g := ⟨i 0, i 1, eq_ix2 i⟩
  rw [maximumf_apply, addf_apply, host_zero_at, Cert.LibHostRows.bcast_1b_ab_at d2 hd20 hd21 hb2 _ r g,
    row_of_vector b d1 hd1 hb1 hc]
  rfl

/-- A dense layer with the bias a reshaped vector is the host's product plus the broadcast vector. -/
theorem dense_host (A : FVec Ideal ⟨2, ![R, K]⟩ .f32) (W : FVec Ideal ⟨2, ![K, N]⟩ .f32) (b : FVec Ideal ⟨1, ![N]⟩ .f32)
    (hc : (⟨1, ![N]⟩ : Shape).ShapeCasts ⟨2, ![1, N]⟩)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    affLayer A W (shapeCast ⟨2, ![1, N]⟩ b hc)
      = addf (Host.dotGeneral (DotDims.plain R K N) none A W)
          (broadcastInDim ⟨2, ![R, N]⟩ d2 hb2 (broadcastInDim ⟨2, ![1, N]⟩ d1 hb1 b)) := by
  funext i
  obtain ⟨r, g, rfl⟩ : ∃ (r : Fin R) (g : Fin N), i = ix2 r g := ⟨i 0, i 1, eq_ix2 i⟩
  rw [host_affine_at A W b d1 hd1 hb1 d2 hd20 hd21 hb2 r g, row_of_vector b d1 hd1 hb1 hc]
  rfl

end Cert.LayerForms

end
-- ==== Proof.LibReluLayers.lean ====
/-
  Dense layers that rectify their biased input BEFORE the product, on the extended reals, for any extents R, K, N: the
  three dense layers of a two-layer graph convolution with a linear head.

  Layer 1 is the plain product  x · W.  Layer 2 rectifies its biased input first and multiplies after:
  max (a + b, 0) · W.  The head does the same and adds an output bias:  max (a + b, 0) · W + o.  A pipelined kernel
  spells each on a row block (operands narrowed to bf16, a product into the zero accumulator, biases kept as one-row
  blocks repeated down the rows); a host program spells each on the whole matrix (dot_general, bias vectors through two
  broadcast_in_dims, the maximum with a zero matrix).  On the extended reals a change of float format is the identity and
  both products are the same finite sum over the contracted axis, so all spellings read, entry by entry, as the same sums.
  An entry of any of these layers reads only ONE row of the row-indexed input.
-/
import proofs.«163684_j48533130445249_1_alg».proof.Proof.LibLayerForms

noncomputable section

open scoped BigOperators

namespace Cert.GcnDense

open Idealize.ShloMosaic Idealize.ShloMosaic.ValueIdx Cert.SageLayers Cert.LayerForms

variable {R K N : ℕ}

/-- The bias-free product h · W as a whole matrix. -/
def prodLayer (H : (⟨2, ![R, K]⟩ : Shape).Idx → EReal) (W : (⟨2, ![K, N]⟩ : Shape).Idx → EReal) :
    (⟨2, ![R, N]⟩ : Shape).Idx → EReal :=
  fun i => dotAt H W (i 0) (i 1)

/-- The host's dot_general is that product. -/
theorem prod_host (H : FVec Ideal ⟨2, ![R, K]⟩ .f32) (W : FVec Ideal ⟨2, ![K, N]⟩ .f32) :
    prodLayer H W = Host.dotGeneral (DotDims.plain R K N) none H W := by
  funext i
  obtain ⟨r, g, rfl⟩ : ∃ (r : Fin R) (g : Fin N), i = ix2 r g := ⟨i 0, i 1, eq_ix2 i⟩
  exact (host_dot_at H W r g).symm

/-- The rectified biased rows max (a + b, 0) in a kernel body's spelling: the block and the one-row bias through
    identity shape casts, the bias repeated down the rows, the maximum with a splat zero. -/
theorem body_reluRows (A : FVec Ideal ⟨2, ![R, K]⟩ .f32) (b : FVec Ideal ⟨2, ![1, K]⟩ .f32)
    (hA : (⟨2, ![R, K]⟩ : Shape).ShapeCasts ⟨2, ![R, K]⟩) (hb : (⟨2, ![1, K]⟩ : Shape).ShapeCasts ⟨2, ![1, K]⟩)
    (hbc : (⟨2, ![1, K]⟩ : Shape).Broadcasts ⟨2, ![R, K]⟩) :
    maximumf (addf (shapeCast ⟨2, ![R, K]⟩ A hA) (broadcastTo ⟨2, ![R, K]⟩ (shapeCast ⟨2, ![1, K]⟩ b hb) hbc))
        (broadcast ⟨2, ![R, K]⟩ (Scalar.ofBits .f32 0x00000000#32 : Ideal .f32))
      = reluRows A b := by
  funext i
  obtain ⟨r, g, rfl⟩ : ∃ (r : Fin R) (g : Fin K), i = ix2 r g := ⟨i 0, i 1, eq_ix2 i⟩
  rw [maximumf_apply, addf_apply, shapeCast_self, Cert.LibBlockLayout.rowBroadcast_at, shapeCast_self]
  rfl

/-- Layer 2 in a kernel body's spelling, read at an entry. -/
theorem body_reluProd_at (A : FVec Ideal ⟨2, ![R, K]⟩ .f32) (b : FVec Ideal ⟨2, ![1, K]⟩ .f32)
    (W : FVec Ideal ⟨2, ![K, N]⟩ .f32)
    (hA : (⟨2, ![R, K]⟩ : Shape).ShapeCasts ⟨2, ![R, K]⟩) (hb : (⟨2, ![1, K]⟩ : Shape).ShapeCasts ⟨2, ![1, K]⟩)
    (hbc : (⟨2, ![1, K]⟩ : Shape).Broadcasts ⟨2, ![R, K]⟩)
    (h1 : FTy.bf16.bits < FTy.f32.bits) (h2 : FTy.bf16.bits < FTy.f32.bits) (r : Fin R) (g : Fin N) :
    matmul (DotDims.plain R K N) none
        (truncf .bf16 (maximumf (addf (shapeCast ⟨2, ![R, K]⟩ A hA) (broadcastTo ⟨2, ![R, K]⟩ (shapeCast ⟨2, ![1, K]⟩ b hb) hbc))
          (broadcast ⟨2, ![R, K]⟩ (Scalar.ofBits .f32 0x00000000#32 : Ideal .f32))) h1)
        (truncf .bf16 W h2) (constant ⟨2, ![R, N]⟩ .f32 0x00000000#32) (ix2 r g)
      = dotAt (reluRows A b) W r g := by
  rw [body_reluRows A b hA hb hbc]
  exact kernel_dot_at (reluRows A b) W h1 h2 r g

/-- The head in a kernel body's spelling, read at an entry. -/
theorem body_reluAff_at (A : FVec Ideal ⟨2, ![R, K]⟩ .f32) (b : FVec Ideal ⟨2, ![1, K]⟩ .f32)
    (W : FVec Ideal ⟨2, ![K, N]⟩ .f32) (o : FVec Ideal ⟨2, ![1, N]⟩ .f32)
    (hA : (⟨2, ![R, K]⟩ : Shape).ShapeCasts ⟨2, ![R, K]⟩) (hb : (⟨2, ![1, K]⟩ : Shape).ShapeCasts ⟨2, ![1, K]⟩)
    (hbc : (⟨2, ![1, K]⟩ : Shape).Broadcasts ⟨2, ![R, K]⟩)
    (h1 : FTy.bf16.bits < FTy.f32.bits) (h2 : FTy.bf16.bits < FTy.f32.bits)
    (ho : (⟨2, ![1, N]⟩ : Shape).ShapeCasts ⟨2, ![1, N]⟩) (hoc : (⟨2, ![1, N]⟩ : Shape).Broadcasts ⟨2, ![R, N]⟩)
    (r : Fin R) (g : Fin N) :
    addf (matmul (DotDims.plain R K N) none
        (truncf .bf16 (maximumf (addf (shapeCast ⟨2, ![R, K]⟩ A hA) (broadcastTo ⟨2, ![R, K]⟩ (shapeCast ⟨2, ![1, K]⟩ b hb) hbc))
          (broadcast ⟨2, ![R, K]⟩ (Scalar.ofBits .f32 0x00000000#32 : Ideal .f32))) h1)
        (truncf .bf16 W h2) (constant ⟨2, ![R, N]⟩ .f32 0x00000000#32))
        (broadcastTo ⟨2, ![R, N]⟩ (shapeCast ⟨2, ![1, N]⟩ o ho) hoc) (ix2 r g)
      = affineAt (reluRows A b) W o r g := by
  rw [body_reluRows A b hA hb hbc]
  exact kernel_affine_at (reluRows A b) W o h1 h2 ho hoc r g

/-- An entry of the product reads one row of the left operand and one column of the right one. -/
theorem dotAt_rows {R' : ℕ} (H : (⟨2, ![R, K]⟩ : Shape).Idx → EReal) (H' : (⟨2, ![R', K]⟩ : Shape).Idx → EReal)
    (W W' : (⟨2, ![K, N]⟩ : Shape).Idx → EReal) (r : Fin R) (r' : Fin R') (g : Fin N)
    (hH : ∀ k : Fin K, H (ix2 r k) = H' (ix2 r' k)) (hW : ∀ k : Fin K, W (ix2 k g) = W' (ix2 k g)) :
    dotAt H W r g = dotAt H' W' r' g :=
  Finset.sum_congr rfl fun k _ => by rw [hH k, hW k]

/-- An entry of the rectified biased rows reads one entry of the input and one of the bias row. -/
theorem reluRows_at {R' : ℕ} (A : (⟨2, ![R, K]⟩ : Shape).Idx → EReal) (A' : (⟨2, ![R', K]⟩ : Shape).Idx → EReal)
    (b b' : (⟨2, ![1, K]⟩ : Shape).Idx → EReal) (r : Fin R) (r' : Fin R') (k : Fin K)
    (hA : A (ix2 r k) = A' (ix2 r' k)) (hb : b (ix2 (0 : Fin 1) k) = b' (ix2 (0 : Fin 1) k)) :
    reluRows A b (ix2 r k) = reluRows A' b' (ix2 r' k) := by
  show max (A (ix2 r k) + b (ix2 (0 : Fin 1) k)) zeroF = max (A' (ix2 r' k) + b' (ix2 (0 : Fin 1) k)) zeroF
  rw [hA, hb]

end Cert.GcnDense

end
-- ==== Proof.Region0.lean ====
/-
  Layer 1 on the device: the pipelined kernel of the first pallas_call computes x · W1 row block by row block — ten
  blocks of 10000 node rows, each written back to its own rows of the result —, so after the region the result array
  holds the product of the WHOLE node matrix with W1. Stated for any contents the region is entered with.

  Block t of the node matrix is rows 10000 t … 10000 t + 9999, all columns; the weight matrix is one block, the same at
  every point. Entry (p, q) of what point t writes is the sum over k of block-row p times weight column q, that is row
  10000 t + p of the whole product; the ten blocks tile the 100000 rows.
-/
import proofs.«163684_j48533130445249_1_alg».proof.Proof.Gen.KernelIdeal.Frame
import proofs.«163684_j48533130445249_1_alg».proof.Proof.LibReluLayers
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.SageLayers Cert.LayerForms Cert.GcnDense

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the node blocks move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Layer 1 of the whole node matrix. -/
abbrev wholeLayer (x : S100000x16.Idx → EReal) (w : S16x32.Idx → EReal) : S100000x32.Idx → EReal :=
  prodLayer (R := 100000) (K := 16) (N := 32) x w

/-- Entry (p, q) of a point's payload is entry (r, q) of the whole layer, when row p of the block is row r of the
    node matrix and the weights are the weights. -/
theorem payload_at (x0 : Vec Ideal S10000x16 .f32) (x1 : Vec Ideal S16x32 .f32)
    (x : S100000x16.Idx → EReal) (w : S16x32.Idx → EReal) (p : Fin 10000) (q : Fin 32) (r : Fin 100000)
    (h0 : ∀ k : Fin 16, x0 (ix2 p k) = x (ix2 r k)) (h1 : ∀ k : Fin 16, x1 (ix2 k q) = w (ix2 k q)) :
    k0_pay1 (F := Ideal) x0 x1 (ix2 p q) = wholeLayer x w (ix2 r q) := by
  unfold k0_pay1
  refine (kernel_dot_at (R := 10000) (K := 16) (N := 32) x0 x1 _ _ p q).trans ?_
  exact dotAt_rows x0 x x1 w p r q h0 h1

/-- What point t writes back is block t of the whole layer. -/
theorem flushed_eq (c : Dev nD) (t : Fin cfg0.N) :
    (dat0 V c).flushed 2 t = ((cfg0.win 2).blk t).view.read (Elt Ideal) (wholeLayer (V c main_arg0) (V c main_arg2)) := by
  show (cfg0.win 2).cut (grid0.coords t) ((dat0 V c).after 2 t) = _
  rw [after0_2]
  unfold out0_2
  rw [View.canon_unit_zero origin]
  simp only [View.ld_unit_zero (S := S10000x16) origin, View.ld_unit_zero (S := S16x32) origin]
  obtain ⟨e0, e1, e2, e3, e4, e5⟩ := idx_facts t
  have ht : t.val < 10 := Nat.lt_of_lt_of_eq t.isLt (show cfg0.N = 10 from N_0)
  funext j
  obtain ⟨p, q, rfl⟩ : ∃ (p : Fin 10000) (q : Fin 32), j = ix2 p q := ⟨j 0, j 1, eq_ix2 j⟩
  have hr : t.val * 10000 + p.val < 100000 := by have := p.isLt; omega
  have hemb : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 32 + 1 * q.val = q.val; omega
  show k0_pay1 (iblk0 V c 0 t) (iblk0 V c 1 t) (ix2 p q)
    = wholeLayer (V c main_arg0) (V c main_arg2) (((cfg0.win 2).blk t).view.emb (ix2 p q))
  rw [hemb]
  refine payload_at (iblk0 V c 0 t) (iblk0 V c 1 t) (V c main_arg0) (V c main_arg2) p q ⟨_, hr⟩ (fun k => ?_) (fun k => ?_)
  · show V c main_arg0 (((cfg0.win 0).blk t).view.emb (ix2 p k)) = V c main_arg0 (ix2 (⟨t.val * 10000 + p.val, hr⟩ : Fin 100000) k)
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 16 + 1 * k.val = k.val; omega
  · show V c main_arg2 (((cfg0.win 1).blk t).view.emb (ix2 k q)) = V c main_arg2 (ix2 k q)
    refine congrArg _ (funext fun a => Fin.ext ?_)
    match a with
    | ⟨0, _⟩ => show win0_1.index t (0 : Fin 2) * 16 + 1 * k.val = k.val; omega
    | ⟨1, _⟩ => show win0_1.index t (1 : Fin 2) * 32 + 1 * q.val = q.val; omega

/-- An index of the result is in point t's block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

/-- Every row of the result is in the block of the point numbered by the row's quotient by 10000. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  have hlt : (i 0).val / 10000 < cfg0.N := by rw [hN]; omega
  obtain ⟨e0, e1, e2, e3, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 32 ≤ (i 1).val ∧ (i 1).val < win0_2.index ⟨(i 0).val / 10000, hlt⟩ (1 : Fin 2) * 32 + 32
    rw [e5]; omega

/-- After the region the result array is layer 1 of the whole node matrix as the region found it. -/
theorem final (c : Dev nD) : (dat0 V c).arrAt 2 cfg0.N = wholeLayer (V c main_arg0) (V c main_arg2) :=
  (dat0 V c).arrAt_eq_of_cover 2 (wholeLayer (V c main_arg0) (V c main_arg2)) (fun t _ => flushed_eq V c t) cover

end Cert.KernelIdeal.Region0

end
-- ==== Proof.Region1.lean ====
/-
  Layer 2 on the device: the pipelined kernel of the second pallas_call computes  max (A + b, 0) · W2  row block by row
  block — ten blocks of 10000 node rows of the aggregated matrix A, the bias row and the weights whole at every point —,
  so after the region the result array holds layer 2 of the WHOLE aggregated matrix. Stated for any contents the region
  is entered with.

  Entry (p, q) of what point t writes reads row p of block t, that is row 10000 t + p of A; the ten blocks tile the
  100000 rows.
-/
import proofs.«163684_j48533130445249_1_alg».proof.Proof.Gen.KernelIdeal.Frame
import proofs.«163684_j48533130445249_1_alg».proof.Proof.LibReluLayers
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.SageLayers Cert.LayerForms Cert.GcnDense

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the node blocks move with the point, the bias row and the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Layer 2 of the whole aggregated matrix. -/
abbrev wholeLayer (A : S100000x32.Idx → EReal) (b : S1x32.Idx → EReal) (W : S32x32.Idx → EReal) : S100000x32.Idx → EReal :=
  prodLayer (R := 100000) (K := 32) (N := 32) (reluRows (R := 100000) (N := 32) A b) W

/-- Entry (p, q) of a point's payload is entry (r, q) of the whole layer, when row p of the block is row r of the
    aggregated matrix and the bias row and the weights are themselves. -/
theorem payload_at (x0 : Vec Ideal S10000x32 .f32) (x1 : Vec Ideal S1x32 .f32) (x2 : Vec Ideal S32x32 .f32)
    (A : S100000x32.Idx → EReal) (b : S1x32.Idx → EReal) (W : S32x32.Idx → EReal) (p : Fin 10000) (q : Fin 32) (r : Fin 100000)
    (h0 : ∀ k : Fin 32, x0 (ix2 p k) = A (ix2 r k)) (h1 : ∀ k : Fin 32, x1 (ix2 (0 : Fin 1) k) = b (ix2 (0 : Fin 1) k))
    (h2 : ∀ k : Fin 32, x2 (ix2 k q) = W (ix2 k q)) :
    k1_pay1 (F := Ideal) x0 x1 x2 (ix2 p q) = wholeLayer A b W (ix2 r q) := by
  unfold k1_pay1
  refine (body_reluProd_at (R := 10000) (K := 32) (N := 32) x0 x1 x2 _ _ _ _ _ p q).trans ?_
  exact dotAt_rows (reluRows x0 x1) (reluRows A b) x2 W p r q (fun k => reluRows_at x0 A x1 b p r k (h0 k) (h1 k)) h2

/-- What point t writes back is block t of the whole layer. -/
theorem flushed_eq (c : Dev nD) (t : Fin cfg1.N) :
    (dat1 V c).flushed 3 t = ((cfg1.win 3).blk t).view.read (Elt Ideal) (wholeLayer (V c main_v43) (V c main_v44) (V c main_arg4)) := by
  show (cfg1.win 3).cut (grid1.coords t) ((dat1 V c).after 3 t) = _
  rw [after1_3]
  unfold out1_3
  rw [View.canon_unit_zero origin]
  simp only [View.ld_unit_zero (S := S10000x32) origin, View.ld_unit_zero (S := S1x32) origin, View.ld_unit_zero (S := S32x32) origin]
  obtain ⟨e0, e1, e2, e3, e4, e5, e6, e7⟩ := idx_facts t
  have ht : t.val < 10 := Nat.lt_of_lt_of_eq t.isLt (show cfg1.N = 10 from N_1)
  funext j
  obtain ⟨p, q, rfl⟩ : ∃ (p : Fin 10000) (q : Fin 32), j = ix2 p q := ⟨j 0, j 1, eq_ix2 j⟩
  have hr : t.val * 10000 + p.val < 100000 := by have := p.isLt; omega
  have hemb : ((cfg1.win 3).blk t).view.emb (ix2 p q) = ix2 (⟨t.val * 10000 + p.val, hr⟩ : Fin 100000) q := by
    funext a; apply Fin.ext
    match a with
    | ⟨0, _⟩ => show win1_3.index t (0 : Fin 2) * 10000 + 1 * p.val = t.val * 10000 + p.val; omega
    | ⟨1, _⟩ => show win1_3.index t (1 : Fin 2) * 32 + 1 * q.val = q.val; omega
  show k1_pay1 (iblk1 V c 0 t) (iblk1 V c 1 t) (iblk1 V c 2 t) (ix2 p q)
    = wholeLayer (V c main_v43) (V c main_v44) (V c main_arg4) (((cfg1.win 3).blk t).view.emb (ix2 p q))
  rw [hemb]
  refine payload_at (iblk1 V c 0 t) (iblk1 V c 1 t) (iblk1 V c 2 t) (V c main_v43) (V c main_v44) (V c main_arg4) p q ⟨_, hr⟩
    (fun k => ?_) (fun k => ?_) (fun k => ?_)
  · show V c main_v43 (((cfg1.win 0).blk t).view.emb (ix2 p k)) = V c main_v43 (ix2 (⟨t.val * 10000 + p.val, hr⟩ : Fin 100000) k)
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 32 + 1 * k.val = k.val; omega
  · show V c main_v44 (((cfg1.win 1).blk t).view.emb (ix2 (0 : Fin 1) k)) = V c main_v44 (ix2 (0 : Fin 1) k)
    refine congrArg _ (funext fun a => Fin.ext ?_)
    match a with
    | ⟨0, _⟩ => show win1_1.index t (0 : Fin 2) * 1 + 1 * ((0 : Fin 1) : ℕ) = ((0 : Fin 1) : ℕ); omega
    | ⟨1, _⟩ => show win1_1.index t (1 : Fin 2) * 32 + 1 * k.val = k.val; omega
  · show V c main_arg4 (((cfg1.win 2).blk t).view.emb (ix2 k q)) = V c main_arg4 (ix2 k q)
    refine congrArg _ (funext fun a => Fin.ext ?_)
    match a with
    | ⟨0, _⟩ => show win1_2.index t (0 : Fin 2) * 32 + 1 * k.val = k.val; omega
    | ⟨1, _⟩ => show win1_2.index t (1 : Fin 2) * 32 + 1 * q.val = q.val; omega

/-- An index of the result is in point t's block iff each coordinate is in the block's range on its axis. -/
theorem mem_blk (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v45).slice (win1_3.rect t)).set ↔ _
  rw [View.set_slice_whole, Rect.mem_set_unit]
  exact Iff.rfl

/-- Every row of the result is in the block of the point numbered by the row's quotient by 10000. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 10 := N_1
  have hlt : (i 0).val / 10000 < cfg1.N := by rw [hN]; omega
  obtain ⟨e0, e1, e2, e3, e4, e5, e6, e7⟩ := idx_facts ⟨(i 0).val / 10000, hlt⟩
  refine ⟨⟨(i 0).val / 10000, hlt⟩, flush1_3 _, ?_⟩
  rw [mem_blk]
  intro a
  match a with
  | ⟨0, _⟩ =>
    show win1_3.index ⟨(i 0).val / 10000, hlt⟩ (0 : Fin 2) * 10000 ≤ (i 0).val ∧ (i 0).val < win1_3.index ⟨(i 0).val / 10000, hlt⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, hlt⟩ (1 : Fin 2) * 32 ≤ (i 1).val ∧ (i 1).val < win1_3.index ⟨(i 0).val / 10000, hlt⟩ (1 : Fin 2) * 32 + 32
    rw [e7]; omega

/-- After the region the result array is layer 2 of the whole aggregated matrix as the region found it. -/
theorem final (c : Dev nD) : (dat1 V c).arrAt 3 cfg1.N = wholeLayer (V c main_v43) (V c main_v44) (V c main_arg4) :=
  (dat1 V c).arrAt_eq_of_cover 3 (wholeLayer (V c main_v43) (V c main_v44) (V c main_arg4)) (fun t _ => flushed_eq V c t) cover

end Cert.KernelIdeal.Region1

end
-- ==== Proof.Region2.lean ====
/-
  The head on the device: the pipelined kernel of the third pallas_call computes  max (A + b, 0) · Wout + bout  row block
  by row block — ten blocks of 10000 node rows of the aggregated matrix A, the two bias rows and the weight column whole
  at every point —, so after the region the result array holds the head of the WHOLE aggregated matrix. Stated for any
  contents the region is entered with.

  Entry (p, 0) of what point t writes reads row p of block t, that is row 10000 t + p of A; the ten blocks tile the
  100000 rows.
-/
import proofs.«163684_j48533130445249_1_alg».proof.Proof.Gen.KernelIdeal.Frame
import proofs.«163684_j48533130445249_1_alg».proof.Proof.LibReluLayers
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open Cert.SageLayers Cert.LayerForms Cert.GcnDense

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the node blocks move with the point, the bias rows and the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The head of the whole aggregated matrix. -/
abbrev wholeLayer (A : S100000x32.Idx → EReal) (b : S1x32.Idx → EReal) (W : S32x1.Idx → EReal) (o : S1x1.Idx → EReal) :
    S100000x1.Idx → EReal :=
  affLayer (R := 100000) (K := 32) (N := 1) (reluRows (R := 100000) (N := 32) A b) W o

/-- Entry (p, q) of a point's payload is entry (r, q) of the whole head, when row p of the block is row r of the
    aggregated matrix and the bias rows and the weights are themselves. -/
theorem payload_at (x0 : Vec Ideal S10000x32 .f32) (x1 : Vec Ideal S1x32 .f32) (x2 : Vec Ideal S32x1 .f32) (x3 : Vec Ideal S1x1 .f32)
    (A : S100000x32.Idx → EReal) (b : S1x32.Idx → EReal) (W : S32x1.Idx → EReal) (o : S1x1.Idx → EReal)
    (p : Fin 10000) (q : Fin 1) (r : Fin 100000)
    (h0 : ∀ k : Fin 32, x0 (ix2 p k) = A (ix2 r k)) (h1 : ∀ k : Fin 32, x1 (ix2 (0 : Fin 1) k) = b (ix2 (0 : Fin 1) k))
    (h2 : ∀ k : Fin 32, x2 (ix2 k q) = W (ix2 k q)) (h3 : x3 (ix2 (0 : Fin 1) q) = o (ix2 (0 : Fin 1) q)) :
    k2_pay1 (F := Ideal) x0 x1 x2 x3 (ix2 p q) = wholeLayer A b W o (ix2 r q) := by
  unfold k2_pay1
  refine (body_reluAff_at (R := 10000) (K := 32) (N := 1) x0 x1 x2 x3 _ _ _ _ _ _ _ p q).trans ?_
  exact congrArg₂ (· + ·)
    (dotAt_rows (reluRows x0 x1) (reluRows A b) x2 W p r q (fun k => reluRows_at x0 A x1 b p r k (h0 k) (h1 k)) h2) h3

/-- What point t writes back is block t of the whole head. -/
theorem flushed_eq (c : Dev nD) (t : Fin cfg2.N) :
    (dat2 V c).flushed 4 t = ((cfg2.win 4).blk t).view.read (Elt Ideal)
      (wholeLayer (V c main_v58) (V c main_v59) (V c main_arg6) (V c main_v60)) := by
  show (cfg2.win 4).cut (grid2.coords t) ((dat2 V c).after 4 t) = _
  rw [after2_4]
  unfold out2_4
  rw [View.canon_unit_zero origin]
  simp only [View.ld_unit_zero (S := S10000x32) origin, View.ld_unit_zero (S := S1x32) origin, View.ld_unit_zero (S := S32x1) origin,
    View.ld_unit_zero (S := S1x1) origin]
  obtain ⟨e0, e1, e2, e3, e4, e5, e6, e7, e8, e9⟩ := idx_facts t
  have ht : t.val < 10 := Nat.lt_of_lt_of_eq t.isLt (show cfg2.N = 10 from N_2)
  funext j
  obtain ⟨p, q, rfl⟩ : ∃ (p : Fin 10000) (q : Fin 1), j = ix2 p q := ⟨j 0, j 1, eq_ix2 j⟩
  have hr : t.val * 10000 + p.val < 100000 := by have := p.isLt; omega
  have hemb : ((cfg2.win 4).blk t).view.emb (ix2 p q) = ix2 (⟨t.val * 10000 + p.val, hr⟩ : Fin 100000) q := by
    funext a; apply Fin.ext
    match a with
    | ⟨0, _⟩ => show win2_4.index t (0 : Fin 2) * 10000 + 1 * p.val = t.val * 10000 + p.val; omega
    | ⟨1, _⟩ => show win2_4.index t (1 : Fin 2) * 1 + 1 * q.val = q.val; omega
  show k2_pay1 (iblk2 V c 0 t) (iblk2 V c 1 t) (iblk2 V c 2 t) (iblk2 V c 3 t) (ix2 p q)
    = wholeLayer (V c main_v58) (V c main_v59) (V c main_arg6) (V c main_v60) (((cfg2.win 4).blk t).view.emb (ix2 p q))
  rw [hemb]
  refine payload_at (iblk2 V c 0 t) (iblk2 V c 1 t) (iblk2 V c 2 t) (iblk2 V c 3 t) (V c main_v58) (V c main_v59) (V c main_arg6) (V c main_v60)
    p q ⟨_, hr⟩ (fun k => ?_) (fun k => ?_) (fun k => ?_) ?_
  · show V c main_v58 (((cfg2.win 0).blk t).view.emb (ix2 p k)) = V c main_v58 (ix2 (⟨t.val * 10000 + p.val, hr⟩ : Fin 100000) k)
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 32 + 1 * k.val = k.val; omega
  · show V c main_v59 (((cfg2.win 1).blk t).view.emb (ix2 (0 : Fin 1) k)) = V c main_v59 (ix2 (0 : Fin 1) k)
    refine congrArg _ (funext fun a => Fin.ext ?_)
    match a with
    | ⟨0, _⟩ => show win2_1.index t (0 : Fin 2) * 1 + 1 * ((0 : Fin 1) : ℕ) = ((0 : Fin 1) : ℕ); omega
    | ⟨1, _⟩ => show win2_1.index t (1 : Fin 2) * 32 + 1 * k.val = k.val; omega
  · show V c main_arg6 (((cfg2.win 2).blk t).view.emb (ix2 k q)) = V c main_arg6 (ix2 k q)
    refine congrArg _ (funext fun a => Fin.ext ?_)
    match a with
    | ⟨0, _⟩ => show win2_2.index t (0 : Fin 2) * 32 + 1 * k.val = k.val; omega
    | ⟨1, _⟩ => show win2_2.index t (1 : Fin 2) * 1 + 1 * q.val = q.val; omega
  · show V c main_v60 (((cfg2.win 3).blk t).view.emb (ix2 (0 : Fin 1) q)) = V c main_v60 (ix2 (0 : Fin 1) q)
    refine congrArg _ (funext fun a => Fin.ext ?_)
    match a with
    | ⟨0, _⟩ => show win2_3.index t (0 : Fin 2) * 1 + 1 * ((0 : Fin 1) : ℕ) = ((0 : Fin 1) : ℕ); omega
    | ⟨1, _⟩ => show win2_3.index t (1 : Fin 2) * 1 + 1 * q.val = q.val; omega

/-- An index of the result is in point t's block iff each coordinate is in the block's range on its axis. -/
theorem mem_blk (t : Fin cfg2.N) (i : S100000x1.Idx) :
    i ∈ ((cfg2.win 4).blk t).view.set ↔ ∀ a : Fin 2, win2_4.index t a * S10000x1.size a ≤ (i a).val ∧ (i a).val < win2_4.index t a * S10000x1.size a + S10000x1.size a := by
  show i ∈ ((View.whole main_v61).slice (win2_4.rect t)).set ↔ _
  rw [View.set_slice_whole, Rect.mem_set_unit]
  exact Iff.rfl

/-- Every row of the result is in the block of the point numbered by the row's quotient by 10000. -/
theorem cover (i : S100000x1.Idx) : ∃ t : Fin cfg2.N, (cfg2.win 4).flush t = true ∧ i ∈ ((cfg2.win 4).blk t).view.set := by
  have hi0 : (i 0).val < 100000 := (i 0).isLt
  have hi1 : (i 1).val < 1 := (i 1).isLt
  have hN : cfg2.N = 10 := N_2
  have hlt : (i 0).val / 10000 < cfg2.N := by rw [hN]; omega
  obtain ⟨e0, e1, e2, e3, e4, e5, e6, e7, e8, e9⟩ := idx_facts ⟨(i 0).val / 10000, hlt⟩
  refine ⟨⟨(i 0).val / 10000, hlt⟩, flush2_4 _, ?_⟩
  rw [mem_blk]
  intro a
  match a with
  | ⟨0, _⟩ =>
    show win2_4.index ⟨(i 0).val / 10000, hlt⟩ (0 : Fin 2) * 10000 ≤ (i 0).val ∧ (i 0).val < win2_4.index ⟨(i 0).val / 10000, hlt⟩ (0 : Fin 2) * 10000 + 10000
    rw [e8]; show (i 0).val / 10000 * 10000 ≤ (i 0).val ∧ (i 0).val < (i 0).val / 10000 * 10000 + 10000; omega
  | ⟨1, _⟩ =>
    show win2_4.index ⟨(i 0).val / 10000, hlt⟩ (1 : Fin 2) * 1 ≤ (i 1).val ∧ (i 1).val < win2_4.index ⟨(i 0).val / 10000, hlt⟩ (1 : Fin 2) * 1 + 1
    rw [e9]; omega

/-- After the region the result array is the head of the whole aggregated matrix as the region found it. -/
theorem final (c : Dev nD) : (dat2 V c).arrAt 4 cfg2.N = wholeLayer (V c main_v58) (V c main_v59) (V c main_arg6) (V c main_v60) :=
  (dat2 V c).arrAt_eq_of_cover 4 (wholeLayer (V c main_v58) (V c main_v59) (V c main_arg6) (V c main_v60)) (fun t _ => flushed_eq V c t) cover

end Cert.KernelIdeal.Region2

end
-- ==== Proof.AggKer.lean ====
/-
  The graph side of the convolution as four functions of the host program's own operations: the source and the
  destination node of every edge with one self loop per node appended (`srcOf`, `dstOf`); the symmetric normalisation
  of an edge, the product of the inverse square roots of its two end nodes' degrees, a node's degree counted by a
  scatter-add of ones over the destinations and a node of degree zero given the factor zero (`normOf`); and the
  aggregation of a node feature matrix: every edge gathers its source node's row, scales it by the edge's
  normalisation, and the rows are scatter-added at the edge's destination (`aggOf`). A negative index wraps by the
  node count before the gather, as the program writes it.
-/
import proofs.«163684_j48533130445249_1_alg».proof.Proof.Gen.KernelIdeal

noncomputable section

namespace Cert.KernelIdeal.Agg

open Cert.KernelIdeal Cert.KernelIdeal.Gen Idealize.ShloMosaic Idealize.ShloMosaic.TcCoe

variable {F : FTy → Type} [FloatOps F]

/-- The source node of every edge, one self loop per node appended. -/
def srcOf (ei : (⟨S2x3200000, .i32⟩ : BufTy).Contents (Elt F)) : (⟨S3300000, .i32⟩ : BufTy).Contents (Elt F) :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The destination node of every edge, one self loop per node appended. -/
def dstOf (ei : (⟨S2x3200000, .i32⟩ : BufTy).Contents (Elt F)) : (⟨S3300000, .i32⟩ : BufTy).Contents (Elt F) :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- The symmetric normalisation of every edge: dinv (src) · dinv (dst), dinv = 1 / sqrt (degree) where the degree is
    positive and zero elsewhere. -/
def normOf (s d : (⟨S3300000, .i32⟩ : BufTy).Contents (Elt F)) : (⟨S3300000, .f32⟩ : BufTy).Contents (Elt F) :=
  mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt d (broadcastInDim S3300000 ![] bcast_S_S3300000 (constantI S_ 32 0#32))) (addi d (broadcastInDim S3300000 ![] bcast_S_S3300000 (constantI S_ 32 100000#32))) d)))

/-- The aggregation of a node feature matrix over the edges. -/
def aggOf (s d : (⟨S3300000, .i32⟩ : BufTy).Contents (Elt F)) (n : (⟨S3300000, .f32⟩ : BufTy).Contents (Elt F))
    (H : (⟨S100000x32, .f32⟩ : BufTy).Contents (Elt F)) : (⟨S100000x32, .f32⟩ : BufTy).Contents (Elt F) :=
  Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 d) (mulf (Host.gather gather_S100000x32_S3300000x1_S3300000x32_1_0_n_n_0_1_132 H (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s))) (broadcastInDim S3300000x32 ![0, 1] bcast_S3300000x1_S3300000x32_0_1 (broadcastInDim S3300000x1 ![0] bcast_S3300000_S3300000x1_0 n)))

end Cert.KernelIdeal.Agg

end
-- ==== Proof.Spec.lean ====
/-
  The network's result as one function of its eight arguments, on the extended reals: with s, d the source and the
  destination of every edge (self loops appended) and n the edges' symmetric normalisation,

      A1 = aggregate (x · W1)        H2 = max (A1 + b1, 0) · W2        A2 = aggregate H2
      result = max (A2 + b2, 0) · Wout + bout

  the biases as one-row matrices. Both programs are shown to end with this array.
-/
import proofs.«163684_j48533130445249_1_alg».proof.Proof.AggKer
import proofs.«163684_j48533130445249_1_alg».proof.Proof.LibReluLayers

noncomputable section

namespace Cert.KernelIdeal.Spec

open Cert.KernelIdeal Cert.KernelIdeal.Gen Cert.KernelIdeal.Agg Idealize.ShloMosaic Idealize.ShloMosaic.TcCoe
open Cert.SageLayers Cert.LayerForms Cert.GcnDense

/-- The aggregation of a node feature matrix over the graph the edge list describes. -/
def aggregate (ei : (⟨S2x3200000, .i32⟩ : BufTy).Contents (Elt Ideal)) (H : (⟨S100000x32, .f32⟩ : BufTy).Contents (Elt Ideal)) : (⟨S100000x32, .f32⟩ : BufTy).Contents (Elt Ideal) :=
  aggOf (F := Ideal) (srcOf ei) (dstOf ei) (normOf (srcOf ei) (dstOf ei)) H

/-- Layer 2's output from the first aggregation. -/
def hidden (A1 : (⟨S100000x32, .f32⟩ : BufTy).Contents (Elt Ideal)) (b1 : (⟨S32, .f32⟩ : BufTy).Contents (Elt Ideal)) (W2 : (⟨S32x32, .f32⟩ : BufTy).Contents (Elt Ideal)) : (⟨S100000x32, .f32⟩ : BufTy).Contents (Elt Ideal) :=
  prodLayer (R := 100000) (K := 32) (N := 32) (reluRows (R := 100000) (N := 32) A1 (shapeCast S1x32 b1 shapeCasts_S32_S1x32)) W2

/-- The head's output from the second aggregation. -/
def head (A2 : (⟨S100000x32, .f32⟩ : BufTy).Contents (Elt Ideal)) (b2 : (⟨S32, .f32⟩ : BufTy).Contents (Elt Ideal)) (Wout : (⟨S32x1, .f32⟩ : BufTy).Contents (Elt Ideal)) (bout : (⟨S1, .f32⟩ : BufTy).Contents (Elt Ideal)) :
    (⟨S100000x1, .f32⟩ : BufTy).Contents (Elt Ideal) :=
  affLayer (R := 100000) (K := 32) (N := 1) (reluRows (R := 100000) (N := 32) A2 (shapeCast S1x32 b2 shapeCasts_S32_S1x32)) Wout
    (shapeCast S1x1 bout shapeCasts_S1_S1x1)

/-- The network's result. -/
def out (x : (⟨S100000x16, .f32⟩ : BufTy).Contents (Elt Ideal)) (ei : (⟨S2x3200000, .i32⟩ : BufTy).Contents (Elt Ideal)) (W1 : (⟨S16x32, .f32⟩ : BufTy).Contents (Elt Ideal)) (b1 : (⟨S32, .f32⟩ : BufTy).Contents (Elt Ideal))
    (W2 : (⟨S32x32, .f32⟩ : BufTy).Contents (Elt Ideal)) (b2 : (⟨S32, .f32⟩ : BufTy).Contents (Elt Ideal)) (Wout : (⟨S32x1, .f32⟩ : BufTy).Contents (Elt Ideal)) (bout : (⟨S1, .f32⟩ : BufTy).Contents (Elt Ideal)) :
    (⟨S100000x1, .f32⟩ : BufTy).Contents (Elt Ideal) :=
  head (aggregate ei (hidden (aggregate ei (prodLayer (R := 100000) (K := 16) (N := 32) x W1)) b1 W2)) b2 Wout bout

end Cert.KernelIdeal.Spec

end
-- ==== Proof.KernelValue.lean ====
/-
  The idealized kernel's result array after the run, walked back through @main's eight segments to the launch memory.

  At each boundary between segments the buffers that matter are named: the edges' sources, destinations and
  normalisation (computed by the first host stretches, read by every later one, written by none), the arguments (never
  written), and the node feature matrix of the stage. A host stretch's results are its operations applied to the
  contents before it; a region leaves its result array at what its blocks' write-backs make of it — the layer of the
  whole input matrix (the three region modules) — and every other buffer as it found it. So the result is the head of the
  aggregation of layer 2 of the aggregation of layer 1 of x: the network's result.
-/
import proofs.«163684_j48533130445249_1_alg».proof.Proof.KernelRun
import proofs.«163684_j48533130445249_1_alg».proof.Proof.Region0
import proofs.«163684_j48533130445249_1_alg».proof.Proof.Region1
import proofs.«163684_j48533130445249_1_alg».proof.Proof.Region2
import proofs.«163684_j48533130445249_1_alg».proof.Proof.Spec

set_option maxRecDepth 16384

noncomputable section

namespace Cert.KernelIdeal.Walk

open Cert.KernelIdeal Cert.KernelIdeal.Gen Cert.KernelIdeal.Agg Cert.KernelIdeal.Spec
open Idealize.ShloMosaic Idealize.ShloMosaic.TcCoe Idealize.SL.Sem Idealize.ShloMosaic.StableHlo
open Cert.SageLayers Cert.LayerForms Cert.GcnDense

variable (m : (ℓ : Loc nD τ sig) → Buf (Elt Ideal) ℓ) (ρ : Dev nD → PrngReg) (c : Dev nD)

/-! ## Region 1's entry: the graph side is computed, the arguments are as launched -/

theorem at3_main_v3 : W3 m ρ c (Proc.devRef .tc main_v3) = (srcOf (F := Ideal) (m ((c : Thread nD τ).loc main_arg1))) := by
  show StableHlo.after hostOps0_2 (StableHlo.after hostOps0_1 (StableHlo.after hostOps0 (W0 m ρ c))) (Proc.devRef .tc main_v3) = _
  dsimp only [hostOps0, hostOps0_1, hostOps0_2]
  after_results_simp
  all_goals rfl

theorem at3_main_v6 : W3 m ρ c (Proc.devRef .tc main_v6) = (dstOf (F := Ideal) (m ((c : Thread nD τ).loc main_arg1))) := by
  show StableHlo.after hostOps0_2 (StableHlo.after hostOps0_1 (StableHlo.after hostOps0 (W0 m ρ c))) (Proc.devRef .tc main_v6) = _
  dsimp only [hostOps0, hostOps0_1, hostOps0_2]
  after_results_simp
  all_goals rfl

/-- A node's degree over the destinations: a scatter-add of ones. -/
def degOf (d : (⟨S3300000, .i32⟩ : BufTy).Contents (Elt Ideal)) : FVec Ideal S100000 .f32 :=
  Host.scatterAdd scatter_S100000_S3300000x1_S3300000_n_0_0_1 (broadcastInDim S100000 ![] bcast_S_S100000 (constant (F := Ideal) S_ .f32 0x00000000#32)) (broadcastInDim S3300000x1 ![0] bcast_S3300000_S3300000x1_0 d) (broadcastInDim S3300000 ![] bcast_S_S3300000 (constant (F := Ideal) S_ .f32 0x3F800000#32))

/-- A node's factor 1 / sqrt (degree), zero where the degree is not positive. -/
def dinvOf (d : (⟨S3300000, .i32⟩ : BufTy).Contents (Elt Ideal)) : FVec Ideal S100000 .f32 :=
  select (cmpf (F := Ideal) (φ := .f32) .ogt (degOf d) (broadcastInDim S100000 ![] bcast_S_S100000 (constant (F := Ideal) S_ .f32 0x00000000#32))) (Host.rsqrt (F := Ideal) (φ := .f32) (degOf d))
    (broadcastInDim S100000 ![] bcast_S_S100000 (id (constant (F := Ideal) S_ .f32 0x00000000#32)))

/-- The edges' normalisation from the nodes' factors. -/
theorem normOf_eq (s d : (⟨S3300000, .i32⟩ : BufTy).Contents (Elt Ideal)) :
    normOf (F := Ideal) s d
      = mulf (F := Ideal) (φ := .f32) (Host.gather gather_S100000_S3300000x1_S3300000_n_0_n_n_0_1_1 (dinvOf d) (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s)))
          (Host.gather gather_S100000_S3300000x1_S3300000_n_0_n_n_0_1_1 (dinvOf d) (broadcastInDim S3300000x1 ![0] bcast_S3300000_S3300000x1_0 (select (cmpi .slt d (broadcastInDim S3300000 ![] bcast_S_S3300000 (constantI S_ 32 0#32))) (addi d (broadcastInDim S3300000 ![] bcast_S_S3300000 (constantI S_ 32 100000#32))) d))) := rfl

theorem at1_main_v3 : W1 m ρ c (Proc.devRef .tc main_v3) = (srcOf (F := Ideal) (m ((c : Thread nD τ).loc main_arg1))) := by
  show StableHlo.after hostOps0 (W0 m ρ c) (Proc.devRef .tc main_v3) = _
  dsimp only [hostOps0]
  after_results_simp
  all_goals rfl

theorem at1_main_v6 : W1 m ρ c (Proc.devRef .tc main_v6) = (dstOf (F := Ideal) (m ((c : Thread nD τ).loc main_arg1))) := by
  show StableHlo.after hostOps0 (W0 m ρ c) (Proc.devRef .tc main_v6) = _
  dsimp only [hostOps0]
  after_results_simp
  all_goals rfl

/-- After the first stretch: the comparison "degree positive", the inverse square roots and the zero, over an arbitrary
    destination list in its buffer. -/
theorem stretch1 (V : Valuation τ sig (Elt Ideal)) :
    StableHlo.after hostOps0 V (Proc.devRef .tc main_v12)
        = cmpf (F := Ideal) (φ := .f32) .ogt (degOf (StableHlo.after hostOps0 V (Proc.devRef .tc main_v6))) (broadcastInDim S100000 ![] bcast_S_S100000 (constant (F := Ideal) S_ .f32 0x00000000#32))
    ∧ StableHlo.after hostOps0 V (Proc.devRef .tc main_v13) = Host.rsqrt (F := Ideal) (φ := .f32) (degOf (StableHlo.after hostOps0 V (Proc.devRef .tc main_v6)))
    ∧ StableHlo.after hostOps0 V (Proc.devRef .tc main_cst_2) = constant (F := Ideal) S_ .f32 0x00000000#32 := by
  refine ⟨?_, ?_, ?_⟩ <;> dsimp only [hostOps0] <;> after_results_simp <;> rfl

/-- After the outlined select: the nodes' factors. -/
theorem stretch2 (V : Valuation τ sig (Elt Ideal)) :
    StableHlo.after hostOps0_1 V (Proc.devRef .tc main_v14)
      = select (V (Proc.devRef .tc main_v12)) (V (Proc.devRef .tc main_v13)) (broadcastInDim S100000 ![] bcast_S_S100000 (id (V (Proc.devRef .tc main_cst_2)))) := by
  dsimp only [hostOps0_1]
  after_results_simp
  all_goals rfl

theorem stretch2_keep (V : Valuation τ sig (Elt Ideal)) :
    StableHlo.after hostOps0_1 V (Proc.devRef .tc main_v3) = V (Proc.devRef .tc main_v3) ∧ StableHlo.after hostOps0_1 V (Proc.devRef .tc main_v6) = V (Proc.devRef .tc main_v6) := by
  refine ⟨?_, ?_⟩ <;> dsimp only [hostOps0_1] <;> after_results_simp

/-- After the third stretch: the edges' normalisation from the factors and the two index lists in their buffers. -/
theorem stretch3 (V : Valuation τ sig (Elt Ideal)) :
    StableHlo.after hostOps0_2 V (Proc.devRef .tc main_v29)
      = mulf (F := Ideal) (φ := .f32) (Host.gather gather_S100000_S3300000x1_S3300000_n_0_n_n_0_1_1 (V (Proc.devRef .tc main_v14) : FVec Ideal S100000 .f32) (broadcastInDim S3300000x1 ![0] bcast_S3300000_S3300000x1_0 (select (cmpi .slt (V (Proc.devRef .tc main_v3)) (broadcastInDim S3300000 ![] bcast_S_S3300000 (constantI S_ 32 0#32))) (addi (V (Proc.devRef .tc main_v3)) (broadcastInDim S3300000 ![] bcast_S_S3300000 (constantI S_ 32 100000#32))) (V (Proc.devRef .tc main_v3)))))
          (Host.gather gather_S100000_S3300000x1_S3300000_n_0_n_n_0_1_1 (V (Proc.devRef .tc main_v14) : FVec Ideal S100000 .f32) (broadcastInDim S3300000x1 ![0] bcast_S3300000_S3300000x1_0 (select (cmpi .slt (V (Proc.devRef .tc main_v6)) (broadcastInDim S3300000 ![] bcast_S_S3300000 (constantI S_ 32 0#32))) (addi (V (Proc.devRef .tc main_v6)) (broadcastInDim S3300000 ![] bcast_S_S3300000 (constantI S_ 32 100000#32))) (V (Proc.devRef .tc main_v6))))) := by
  dsimp only [hostOps0_2]
  after_results_simp
  all_goals rfl

theorem at2_main_v14 : W2 m ρ c (Proc.devRef .tc main_v14) = dinvOf (dstOf (F := Ideal) (m ((c : Thread nD τ).loc main_arg1))) := by
  show StableHlo.after hostOps0_1 (W1 m ρ c) (Proc.devRef .tc main_v14) = _
  rw [stretch2]
  obtain ⟨h12, h13, hc⟩ := stretch1 (W0 m ρ c)
  rw [show W1 m ρ c (Proc.devRef .tc main_v12) = _ from h12, show W1 m ρ c (Proc.devRef .tc main_v13) = _ from h13, show W1 m ρ c (Proc.devRef .tc main_cst_2) = _ from hc,
    show StableHlo.after hostOps0 (W0 m ρ c) (Proc.devRef .tc main_v6) = _ from at1_main_v6 m ρ c]
  rfl

theorem at3_main_v29 : W3 m ρ c (Proc.devRef .tc main_v29) = (normOf (F := Ideal) (srcOf (m ((c : Thread nD τ).loc main_arg1))) (dstOf (m ((c : Thread nD τ).loc main_arg1)))) := by
  show StableHlo.after hostOps0_2 (W2 m ρ c) (Proc.devRef .tc main_v29) = _
  rw [stretch3, at2_main_v14]
  rw [show W2 m ρ c (Proc.devRef .tc main_v3) = _ from ((stretch2_keep (W1 m ρ c)).1.trans (at1_main_v3 m ρ c)),
    show W2 m ρ c (Proc.devRef .tc main_v6) = _ from ((stretch2_keep (W1 m ρ c)).2.trans (at1_main_v6 m ρ c))]
  exact (normOf_eq _ _).symm

theorem at3_main_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  dsimp only [hostOps0, hostOps0_1, hostOps0_2]
  after_results_simp
  all_goals rfl

theorem at3_main_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  dsimp only [hostOps0, hostOps0_1, hostOps0_2]
  after_results_simp
  all_goals rfl

theorem at3_main_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  dsimp only [hostOps0, hostOps0_1, hostOps0_2]
  after_results_simp
  all_goals rfl

theorem at3_main_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  dsimp only [hostOps0, hostOps0_1, hostOps0_2]
  after_results_simp
  all_goals rfl

theorem at3_main_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  dsimp only [hostOps0, hostOps0_1, hostOps0_2]
  after_results_simp
  all_goals rfl

theorem at3_main_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  dsimp only [hostOps0, hostOps0_1, hostOps0_2]
  after_results_simp
  all_goals rfl

theorem at3_main_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  dsimp only [hostOps0, hostOps0_1, hostOps0_2]
  after_results_simp
  all_goals rfl

/-! ## Region 1's exit: its result array is layer 1, every other buffer is as entered -/

theorem at4_main_v3 : W4 m ρ c (Proc.devRef .tc main_v3) = (srcOf (F := Ideal) (m ((c : Thread nD τ).loc main_arg1))) :=
  (W4_of_ne m ρ c main_v3 (by decide)).trans (at3_main_v3 m ρ c)

theorem at4_main_v6 : W4 m ρ c (Proc.devRef .tc main_v6) = (dstOf (F := Ideal) (m ((c : Thread nD τ).loc main_arg1))) :=
  (W4_of_ne m ρ c main_v6 (by decide)).trans (at3_main_v6 m ρ c)

theorem at4_main_v29 : W4 m ρ c (Proc.devRef .tc main_v29) = (normOf (F := Ideal) (srcOf (m ((c : Thread nD τ).loc main_arg1))) (dstOf (m ((c : Thread nD τ).loc main_arg1)))) :=
  (W4_of_ne m ρ c main_v29 (by decide)).trans (at3_main_v29 m ρ c)

theorem at4_main_arg3 : W4 m ρ c (Proc.devRef .tc main_arg3) = (m ((c : Thread nD τ).loc main_arg3)) :=
  (W4_of_ne m ρ c main_arg3 (by decide)).trans (at3_main_arg3 m ρ c)

theorem at4_main_arg4 : W4 m ρ c (Proc.devRef .tc main_arg4) = (m ((c : Thread nD τ).loc main_arg4)) :=
  (W4_of_ne m ρ c main_arg4 (by decide)).trans (at3_main_arg4 m ρ c)

theorem at4_main_arg5 : W4 m ρ c (Proc.devRef .tc main_arg5) = (m ((c : Thread nD τ).loc main_arg5)) :=
  (W4_of_ne m ρ c main_arg5 (by decide)).trans (at3_main_arg5 m ρ c)

theorem at4_main_arg6 : W4 m ρ c (Proc.devRef .tc main_arg6) = (m ((c : Thread nD τ).loc main_arg6)) :=
  (W4_of_ne m ρ c main_arg6 (by decide)).trans (at3_main_arg6 m ρ c)

theorem at4_main_arg7 : W4 m ρ c (Proc.devRef .tc main_arg7) = (m ((c : Thread nD τ).loc main_arg7)) :=
  (W4_of_ne m ρ c main_arg7 (by decide)).trans (at3_main_arg7 m ρ c)

theorem at4_main_v30 : W4 m ρ c (Proc.devRef .tc main_v30) = (prodLayer (R := 100000) (K := 16) (N := 32) (m ((c : Thread nD τ).loc main_arg0)) (m ((c : Thread nD τ).loc main_arg2))) :=
  (W4_arr m ρ c 2).trans ((Region0.final (V3 m ρ) c).trans
    (congrArg₂ (fun a b => prodLayer (R := 100000) (K := 16) (N := 32) a b) (at3_main_arg0 m ρ c) (at3_main_arg2 m ρ c)))

/-! ## Region 2's entry: the first aggregation and the first bias row are computed -/

theorem at5_main_v3 : W5 m ρ c (Proc.devRef .tc main_v3) = (srcOf (F := Ideal) (m ((c : Thread nD τ).loc main_arg1))) := by
  show StableHlo.after hostOps1 (W4 m ρ c) (Proc.devRef .tc main_v3) = _
  dsimp only [hostOps1]
  after_results_simp
  exact at4_main_v3 m ρ c

theorem at5_main_v6 : W5 m ρ c (Proc.devRef .tc main_v6) = (dstOf (F := Ideal) (m ((c : Thread nD τ).loc main_arg1))) := by
  show StableHlo.after hostOps1 (W4 m ρ c) (Proc.devRef .tc main_v6) = _
  dsimp only [hostOps1]
  after_results_simp
  exact at4_main_v6 m ρ c

theorem at5_main_v29 : W5 m ρ c (Proc.devRef .tc main_v29) = (normOf (F := Ideal) (srcOf (m ((c : Thread nD τ).loc main_arg1))) (dstOf (m ((c : Thread nD τ).loc main_arg1)))) := by
  show StableHlo.after hostOps1 (W4 m ρ c) (Proc.devRef .tc main_v29) = _
  dsimp only [hostOps1]
  after_results_simp
  exact at4_main_v29 m ρ c

theorem at5_main_arg4 : W5 m ρ c (Proc.devRef .tc main_arg4) = (m ((c : Thread nD τ).loc main_arg4)) := by
  show StableHlo.after hostOps1 (W4 m ρ c) (Proc.devRef .tc main_arg4) = _
  dsimp only [hostOps1]
  after_results_simp
  exact at4_main_arg4 m ρ c

theorem at5_main_arg5 : W5 m ρ c (Proc.devRef .tc main_arg5) = (m ((c : Thread nD τ).loc main_arg5)) := by
  show StableHlo.after hostOps1 (W4 m ρ c) (Proc.devRef .tc main_arg5) = _
  dsimp only [hostOps1]
  after_results_simp
  exact at4_main_arg5 m ρ c

theorem at5_main_arg6 : W5 m ρ c (Proc.devRef .tc main_arg6) = (m ((c : Thread nD τ).loc main_arg6)) := by
  show StableHlo.after hostOps1 (W4 m ρ c) (Proc.devRef .tc main_arg6) = _
  dsimp only [hostOps1]
  after_results_simp
  exact at4_main_arg6 m ρ c

theorem at5_main_arg7 : W5 m ρ c (Proc.devRef .tc main_arg7) = (m ((c : Thread nD τ).loc main_arg7)) := by
  show StableHlo.after hostOps1 (W4 m ρ c) (Proc.devRef .tc main_arg7) = _
  dsimp only [hostOps1]
  after_results_simp
  exact at4_main_arg7 m ρ c

theorem at5_main_v43 : W5 m ρ c (Proc.devRef .tc main_v43) = (aggregate (m ((c : Thread nD τ).loc main_arg1)) (prodLayer (R := 100000) (K := 16) (N := 32) (m ((c : Thread nD τ).loc main_arg0)) (m ((c : Thread nD τ).loc main_arg2)))) := by
  have e : W5 m ρ c (Proc.devRef .tc main_v43)
      = aggOf (F := Ideal) (W4 m ρ c (Proc.devRef .tc main_v3)) (W4 m ρ c (Proc.devRef .tc main_v6)) (W4 m ρ c (Proc.devRef .tc main_v29)) (W4 m ρ c (Proc.devRef .tc main_v30)) := by
    show StableHlo.after hostOps1 (W4 m ρ c) (Proc.devRef .tc main_v43) = _
    dsimp only [hostOps1]
    after_results_simp <;> rfl
  rw [e, at4_main_v3, at4_main_v6, at4_main_v29, at4_main_v30]
  rfl

theorem at5_main_v44 : W5 m ρ c (Proc.devRef .tc main_v44) = shapeCast S1x32 (m ((c : Thread nD τ).loc main_arg3)) shapeCasts_S32_S1x32 := by
  have e : W5 m ρ c (Proc.devRef .tc main_v44) = shapeCast S1x32 (W4 m ρ c (Proc.devRef .tc main_arg3)) shapeCasts_S32_S1x32 := by
    show StableHlo.after hostOps1 (W4 m ρ c) (Proc.devRef .tc main_v44) = _
    dsimp only [hostOps1]
    after_results_simp <;> rfl
  rw [e, at4_main_arg3]

/-! ## Region 2's exit: its result array is layer 2 of the first aggregation -/

theorem at6_main_v3 : W6 m ρ c (Proc.devRef .tc main_v3) = (srcOf (F := Ideal) (m ((c : Thread nD τ).loc main_arg1))) :=
  (W6_of_ne m ρ c main_v3 (by decide)).trans (at5_main_v3 m ρ c)

theorem at6_main_v6 : W6 m ρ c (Proc.devRef .tc main_v6) = (dstOf (F := Ideal) (m ((c : Thread nD τ).loc main_arg1))) :=
  (W6_of_ne m ρ c main_v6 (by decide)).trans (at5_main_v6 m ρ c)

theorem at6_main_v29 : W6 m ρ c (Proc.devRef .tc main_v29) = (normOf (F := Ideal) (srcOf (m ((c : Thread nD τ).loc main_arg1))) (dstOf (m ((c : Thread nD τ).loc main_arg1)))) :=
  (W6_of_ne m ρ c main_v29 (by decide)).trans (at5_main_v29 m ρ c)

theorem at6_main_arg5 : W6 m ρ c (Proc.devRef .tc main_arg5) = (m ((c : Thread nD τ).loc main_arg5)) :=
  (W6_of_ne m ρ c main_arg5 (by decide)).trans (at5_main_arg5 m ρ c)

theorem at6_main_arg6 : W6 m ρ c (Proc.devRef .tc main_arg6) = (m ((c : Thread nD τ).loc main_arg6)) :=
  (W6_of_ne m ρ c main_arg6 (by decide)).trans (at5_main_arg6 m ρ c)

theorem at6_main_arg7 : W6 m ρ c (Proc.devRef .tc main_arg7) = (m ((c : Thread nD τ).loc main_arg7)) :=
  (W6_of_ne m ρ c main_arg7 (by decide)).trans (at5_main_arg7 m ρ c)

theorem at6_main_v45 : W6 m ρ c (Proc.devRef .tc main_v45) = (hidden (aggregate (m ((c : Thread nD τ).loc main_arg1)) (prodLayer (R := 100000) (K := 16) (N := 32) (m ((c : Thread nD τ).loc main_arg0)) (m ((c : Thread nD τ).loc main_arg2)))) (m ((c : Thread nD τ).loc main_arg3)) (m ((c : Thread nD τ).loc main_arg4))) := by
  have e : W6 m ρ c (Proc.devRef .tc main_v45)
      = Region1.wholeLayer (W5 m ρ c (Proc.devRef .tc main_v43)) (W5 m ρ c (Proc.devRef .tc main_v44)) (W5 m ρ c (Proc.devRef .tc main_arg4)) :=
    (W6_arr m ρ c 3).trans (Region1.final (V5 m ρ) c)
  rw [e, at5_main_v43, at5_main_v44, at5_main_arg4]
  rfl

/-! ## Region 3's entry: the second aggregation and the head's two bias rows are computed -/

theorem at7_main_arg6 : W7 m ρ c (Proc.devRef .tc main_arg6) = (m ((c : Thread nD τ).loc main_arg6)) := by
  show StableHlo.after hostOps2 (W6 m ρ c) (Proc.devRef .tc main_arg6) = _
  dsimp only [hostOps2]
  after_results_simp
  exact at6_main_arg6 m ρ c

theorem at7_main_v58 : W7 m ρ c (Proc.devRef .tc main_v58) = (aggregate (m ((c : Thread nD τ).loc main_arg1)) (hidden (aggregate (m ((c : Thread nD τ).loc main_arg1)) (prodLayer (R := 100000) (K := 16) (N := 32) (m ((c : Thread nD τ).loc main_arg0)) (m ((c : Thread nD τ).loc main_arg2)))) (m ((c : Thread nD τ).loc main_arg3)) (m ((c : Thread nD τ).loc main_arg4)))) := by
  have e : W7 m ρ c (Proc.devRef .tc main_v58)
      = aggOf (F := Ideal) (W6 m ρ c (Proc.devRef .tc main_v3)) (W6 m ρ c (Proc.devRef .tc main_v6)) (W6 m ρ c (Proc.devRef .tc main_v29)) (W6 m ρ c (Proc.devRef .tc main_v45)) := by
    show StableHlo.after hostOps2 (W6 m ρ c) (Proc.devRef .tc main_v58) = _
    dsimp only [hostOps2]
    after_results_simp <;> rfl
  rw [e, at6_main_v3, at6_main_v6, at6_main_v29, at6_main_v45]
  rfl

theorem at7_main_v59 : W7 m ρ c (Proc.devRef .tc main_v59) = shapeCast S1x32 (m ((c : Thread nD τ).loc main_arg5)) shapeCasts_S32_S1x32 := by
  have e : W7 m ρ c (Proc.devRef .tc main_v59) = shapeCast S1x32 (W6 m ρ c (Proc.devRef .tc main_arg5)) shapeCasts_S32_S1x32 := by
    show StableHlo.after hostOps2 (W6 m ρ c) (Proc.devRef .tc main_v59) = _
    dsimp only [hostOps2]
    after_results_simp <;> rfl
  rw [e, at6_main_arg5]

theorem at7_main_v60 : W7 m ρ c (Proc.devRef .tc main_v60) = shapeCast S1x1 (m ((c : Thread nD τ).loc main_arg7)) shapeCasts_S1_S1x1 := by
  have e : W7 m ρ c (Proc.devRef .tc main_v60) = shapeCast S1x1 (W6 m ρ c (Proc.devRef .tc main_arg7)) shapeCasts_S1_S1x1 := by
    show StableHlo.after hostOps2 (W6 m ρ c) (Proc.devRef .tc main_v60) = _
    dsimp only [hostOps2]
    after_results_simp <;> rfl
  rw [e, at6_main_arg7]

/-! ## The end: the result array is the head of the second aggregation -/

/-- The result array after the run is the network's result of the launch contents. -/
theorem result_eq : W8 m ρ c (Proc.devRef .tc main_v61)
    = Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : W8 m ρ c (Proc.devRef .tc main_v61)
      = Region2.wholeLayer (W7 m ρ c (Proc.devRef .tc main_v58)) (W7 m ρ c (Proc.devRef .tc main_v59)) (W7 m ρ c (Proc.devRef .tc main_arg6)) (W7 m ρ c (Proc.devRef .tc main_v60)) :=
    (W8_arr m ρ c 4).trans (Region2.final (V7 m ρ) c)
  rw [e, at7_main_v58, at7_main_v59, at7_main_arg6, at7_main_v60]
  rfl

/-- The idealized kernel's run: the result array ends at the network's result of the launch contents, the arguments
    as launched. -/
theorem run : θ_run (defs (F := Ideal)) (onTc (τ := τ) (main (F := Ideal))) ⟨m, fun _ => 0, ρ⟩ (fun r => ∀ c : Dev nD,
      r.2.mem ((c.tc : Thread nD τ).loc main_v61)
        = Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_value m ρ)

end Cert.KernelIdeal.Walk

end
-- ==== Proof.AggRef.lean ====
/-
  The graph side of the convolution as four functions of the host program's own operations: the source and the
  destination node of every edge with one self loop per node appended (`srcOf`, `dstOf`); the symmetric normalisation
  of an edge, the product of the inverse square roots of its two end nodes' degrees, a node's degree counted by a
  scatter-add of ones over the destinations and a node of degree zero given the factor zero (`normOf`); and the
  aggregation of a node feature matrix: every edge gathers its source node's row, scales it by the edge's
  normalisation, and the rows are scatter-added at the edge's destination (`aggOf`). A negative index wraps by the
  node count before the gather, as the program writes it.
-/
import proofs.«163684_j48533130445249_1_alg».proof.Proof.Gen.ReferenceIdeal

noncomputable section

namespace Cert.ReferenceIdeal.Agg

open Cert.ReferenceIdeal Cert.ReferenceIdeal.Gen Idealize.ShloMosaic Idealize.ShloMosaic.TcCoe

variable {F : FTy → Type} [FloatOps F]

/-- The source node of every edge, one self loop per node appended. -/
def srcOf (ei : (⟨S2x3200000, .i32⟩ : BufTy).Contents (Elt F)) : (⟨S3300000, .i32⟩ : BufTy).Contents (Elt F) :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The destination node of every edge, one self loop per node appended. -/
def dstOf (ei : (⟨S2x3200000, .i32⟩ : BufTy).Contents (Elt F)) : (⟨S3300000, .i32⟩ : BufTy).Contents (Elt F) :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- The symmetric normalisation of every edge: dinv (src) · dinv (dst), dinv = 1 / sqrt (degree) where the degree is
    positive and zero elsewhere. -/
def normOf (s d : (⟨S3300000, .i32⟩ : BufTy).Contents (Elt F)) : (⟨S3300000, .f32⟩ : BufTy).Contents (Elt F) :=
  mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt d (broadcastInDim S3300000 ![] bcast_S_S3300000 (constantI S_ 32 0#32))) (addi d (broadcastInDim S3300000 ![] bcast_S_S3300000 (constantI S_ 32 100000#32))) d)))

/-- The aggregation of a node feature matrix over the edges. -/
def aggOf (s d : (⟨S3300000, .i32⟩ : BufTy).Contents (Elt F)) (n : (⟨S3300000, .f32⟩ : BufTy).Contents (Elt F))
    (H : (⟨S100000x32, .f32⟩ : BufTy).Contents (Elt F)) : (⟨S100000x32, .f32⟩ : BufTy).Contents (Elt F) :=
  Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 d) (mulf (Host.gather gather_S100000x32_S3300000x1_S3300000x32_1_0_n_n_0_1_132 H (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s))) (broadcastInDim S3300000x32 ![0, 1] bcast_S3300000x1_S3300000x32_0_1 (broadcastInDim S3300000x1 ![0] bcast_S3300000_S3300000x1_0 n)))

end Cert.ReferenceIdeal.Agg

end
-- ==== Proof.RefValue.lean ====
/-
  The reference's result as one function of its eight arguments: the head  max (A2 + b2, 0) · Wout + bout  over layer 2
  max (A1 + b1, 0) · W2  over layer 1  x · W1, where A1 and A2 aggregate the layer below over the edges (`aggOf` at the
  edges' sources, destinations and normalisation). The run's composed term is this function of the launch contents:
  the two are the same operations in the same order, the graph side folded into its four named functions.
-/
import proofs.«163684_j48533130445249_1_alg».proof.Proof.RefRun
import proofs.«163684_j48533130445249_1_alg».proof.Proof.AggRef

noncomputable section

namespace Cert.ReferenceIdeal.RefValue

open Cert.ReferenceIdeal Cert.ReferenceIdeal.Gen Cert.ReferenceIdeal.Agg Idealize.ShloMosaic Idealize.ShloMosaic.TcCoe Idealize.SL.Sem

variable {F : FTy → Type} [FloatOps F]

/-- The reference's result from its arguments, in the host program's operations. -/
def outOf (x : (⟨S100000x16, .f32⟩ : BufTy).Contents (Elt F)) (ei : (⟨S2x3200000, .i32⟩ : BufTy).Contents (Elt F))
    (W1 : (⟨S16x32, .f32⟩ : BufTy).Contents (Elt F)) (b1 : (⟨S32, .f32⟩ : BufTy).Contents (Elt F))
    (W2 : (⟨S32x32, .f32⟩ : BufTy).Contents (Elt F)) (b2 : (⟨S32, .f32⟩ : BufTy).Contents (Elt F))
    (Wout : (⟨S32x1, .f32⟩ : BufTy).Contents (Elt F)) (bout : (⟨S1, .f32⟩ : BufTy).Contents (Elt F)) :
    (⟨S100000x1, .f32⟩ : BufTy).Contents (Elt F) :=
  addf (Host.dotGeneral dot_S100000x32_S32x1_S100000x1_1_0_0_1_n_n none (maximumf (addf (aggOf (srcOf ei) (dstOf ei) (normOf (srcOf ei) (dstOf ei)) (Host.dotGeneral dot_S100000x32_S32x32_S100000x32_1_0_0_1_n_n none (maximumf (addf (aggOf (srcOf ei) (dstOf ei) (normOf (srcOf ei) (dstOf ei)) (Host.dotGeneral dot_S100000x16_S16x32_S100000x32_1_0_0_1_n_n none x W1)) (broadcastInDim S100000x32 ![0, 1] bcast_S1x32_S100000x32_0_1 (broadcastInDim S1x32 ![1] bcast_S32_S1x32_1 b1))) (broadcastInDim S100000x32 ![] bcast_S_S100000x32 (constant S_ .f32 0x00000000#32))) W2)) (broadcastInDim S100000x32 ![0, 1] bcast_S1x32_S100000x32_0_1 (broadcastInDim S1x32 ![1] bcast_S32_S1x32_1 b2))) (broadcastInDim S100000x32 ![] bcast_S_S100000x32 (constant S_ .f32 0x00000000#32))) Wout) (broadcastInDim S100000x1 ![0, 1] bcast_S1x1_S100000x1_0_1 (broadcastInDim S1x1 ![1] bcast_S1_S1x1_1 bout))

set_option maxRecDepth 8192 in
/-- The run's composed term is that function of the launch contents. -/
theorem res_eq (m : (ℓ : Loc nD τ sig) → Buf (Elt F) ℓ) (c : Dev nD) :
    Cert.ReferenceIdeal.ValueP.res_main_v69 m c
      = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

end Cert.ReferenceIdeal.RefValue

end
-- ==== Proof.RefSpec.lean ====
/-
  The reference's result is the network's result. The host spells layer 1 as a dot_general, each rectified biased input
  as "add the bias vector broadcast to every row, then the maximum with the zero matrix", layer 2 as a dot_general of
  that, and the head as a dot_general plus the output bias broadcast to every row; entry by entry these are the sums the
  network's layers are defined by. The graph side is the same operations in both programs' vocabularies.
-/
import proofs.«163684_j48533130445249_1_alg».proof.Proof.RefValue
import proofs.«163684_j48533130445249_1_alg».proof.Proof.Spec

noncomputable section

namespace Cert.ReferenceIdeal.RefSpec

open Idealize.ShloMosaic Idealize.ShloMosaic.TcCoe
open Cert.SageLayers Cert.LayerForms Cert.GcnDense

/-- The aggregation written in the reference's vocabulary is the one written in the kernel program's. -/
theorem aggregate_eq (ei : (⟨Cert.ReferenceIdeal.S2x3200000, .i32⟩ : BufTy).Contents (Elt Ideal)) (H : (⟨Cert.ReferenceIdeal.S100000x32, .f32⟩ : BufTy).Contents (Elt Ideal)) :
    Cert.ReferenceIdeal.Agg.aggOf (F := Ideal) (Cert.ReferenceIdeal.Agg.srcOf ei) (Cert.ReferenceIdeal.Agg.dstOf ei)
        (Cert.ReferenceIdeal.Agg.normOf (Cert.ReferenceIdeal.Agg.srcOf ei) (Cert.ReferenceIdeal.Agg.dstOf ei)) H
      = Cert.KernelIdeal.Spec.aggregate ei H := rfl

/-- The host's layer 1. -/
theorem layer1_host (x : FVec Ideal Cert.ReferenceIdeal.S100000x16 .f32) (W1 : FVec Ideal Cert.ReferenceIdeal.S16x32 .f32) :
    Host.dotGeneral (F := Ideal) Cert.ReferenceIdeal.dot_S100000x16_S16x32_S100000x32_1_0_0_1_n_n none x W1
      = prodLayer (R := 100000) (K := 16) (N := 32) x W1 :=
  (prod_host (R := 100000) (K := 16) (N := 32) x W1).symm

/-- The host's rectified biased rows. -/
theorem relu_host (A : FVec Ideal Cert.ReferenceIdeal.S100000x32 .f32) (b : FVec Ideal Cert.ReferenceIdeal.S32 .f32) :
    maximumf (addf A (broadcastInDim Cert.ReferenceIdeal.S100000x32 ![0, 1] Cert.ReferenceIdeal.Gen.bcast_S1x32_S100000x32_0_1
        (broadcastInDim Cert.ReferenceIdeal.S1x32 ![1] Cert.ReferenceIdeal.Gen.bcast_S32_S1x32_1 b)))
      (broadcastInDim Cert.ReferenceIdeal.S100000x32 ![] Cert.ReferenceIdeal.Gen.bcast_S_S100000x32 (constant (F := Ideal) Cert.ReferenceIdeal.S_ .f32 0x00000000#32))
    = reluRows (R := 100000) (N := 32) A (shapeCast Cert.KernelIdeal.S1x32 b Cert.KernelIdeal.Gen.shapeCasts_S32_S1x32) :=
  (relu_rows_host (R := 100000) (N := 32) A b Cert.KernelIdeal.Gen.shapeCasts_S32_S1x32 ![1] rfl Cert.ReferenceIdeal.Gen.bcast_S32_S1x32_1
      ![0, 1] rfl rfl Cert.ReferenceIdeal.Gen.bcast_S1x32_S100000x32_0_1 ![] Cert.ReferenceIdeal.Gen.bcast_S_S100000x32).symm

/-- The host's layer 2 on rectified rows. -/
theorem layer2_host (A : FVec Ideal Cert.ReferenceIdeal.S100000x32 .f32) (W2 : FVec Ideal Cert.ReferenceIdeal.S32x32 .f32) :
    Host.dotGeneral (F := Ideal) Cert.ReferenceIdeal.dot_S100000x32_S32x32_S100000x32_1_0_0_1_n_n none A W2
      = prodLayer (R := 100000) (K := 32) (N := 32) A W2 :=
  (prod_host (R := 100000) (K := 32) (N := 32) A W2).symm

/-- The host's head on rectified rows. -/
theorem head_host (A : FVec Ideal Cert.ReferenceIdeal.S100000x32 .f32) (Wout : FVec Ideal Cert.ReferenceIdeal.S32x1 .f32) (bout : FVec Ideal Cert.ReferenceIdeal.S1 .f32) :
    addf (F := Ideal) (Host.dotGeneral (F := Ideal) Cert.ReferenceIdeal.dot_S100000x32_S32x1_S100000x1_1_0_0_1_n_n none A Wout)
      (broadcastInDim Cert.ReferenceIdeal.S100000x1 ![0, 1] Cert.ReferenceIdeal.Gen.bcast_S1x1_S100000x1_0_1
        (broadcastInDim Cert.ReferenceIdeal.S1x1 ![1] Cert.ReferenceIdeal.Gen.bcast_S1_S1x1_1 bout))
    = affLayer (R := 100000) (K := 32) (N := 1) A Wout (shapeCast Cert.KernelIdeal.S1x1 bout Cert.KernelIdeal.Gen.shapeCasts_S1_S1x1) :=
  (dense_host (R := 100000) (K := 32) (N := 1) A Wout bout Cert.KernelIdeal.Gen.shapeCasts_S1_S1x1 ![1] rfl Cert.ReferenceIdeal.Gen.bcast_S1_S1x1_1
      ![0, 1] rfl rfl Cert.ReferenceIdeal.Gen.bcast_S1x1_S100000x1_0_1).symm

/-- The reference's result, from its arguments, is the network's result. -/
theorem outOf_eq (x : (⟨Cert.ReferenceIdeal.S100000x16, .f32⟩ : BufTy).Contents (Elt Ideal)) (ei : (⟨Cert.ReferenceIdeal.S2x3200000, .i32⟩ : BufTy).Contents (Elt Ideal)) (W1 : (⟨Cert.ReferenceIdeal.S16x32, .f32⟩ : BufTy).Contents (Elt Ideal)) (b1 : (⟨Cert.ReferenceIdeal.S32, .f32⟩ : BufTy).Contents (Elt Ideal))
    (W2 : (⟨Cert.ReferenceIdeal.S32x32, .f32⟩ : BufTy).Contents (Elt Ideal)) (b2 : (⟨Cert.ReferenceIdeal.S32, .f32⟩ : BufTy).Contents (Elt Ideal)) (Wout : (⟨Cert.ReferenceIdeal.S32x1, .f32⟩ : BufTy).Contents (Elt Ideal)) (bout : (⟨Cert.ReferenceIdeal.S1, .f32⟩ : BufTy).Contents (Elt Ideal)) :
    Cert.ReferenceIdeal.RefValue.outOf (F := Ideal) x ei W1 b1 W2 b2 Wout bout
      = Cert.KernelIdeal.Spec.out x ei W1 b1 W2 b2 Wout bout := by
  unfold Cert.ReferenceIdeal.RefValue.outOf Cert.KernelIdeal.Spec.out Cert.KernelIdeal.Spec.head Cert.KernelIdeal.Spec.hidden
  rw [layer1_host, aggregate_eq, relu_host, layer2_host, aggregate_eq, relu_host, head_host]

end Cert.ReferenceIdeal.RefSpec

end
-- ==== Proof.lean ====
/-
  A two-layer graph convolution with a linear head over 100000 nodes and 3.2 million edges: the kernel program computes
  the three dense layers in three pipelined pallas_calls (row blocks of 10000 nodes) and the gather / scale / scatter-add
  aggregations between them on the host; the reference computes everything on the host.

  On the extended reals both end with the same array. The graph side — self loops, degrees, the symmetric
  normalisation, the two aggregations — is the same host operations in both programs. The dense layers differ only in
  spelling: a change of float format is the identity, a block product into a zero accumulator and a dot_general are the
  same finite sum over the contracted axis, a bias kept as a one-row matrix and repeated down the rows is the bias vector
  broadcast to every row, and an entry of a layer reads one row of its input, so the ten row blocks assemble to the
  layer of the whole matrix. No law used needs finiteness: only sums, products and maxima are compared term by term.

  The idealization rewrote nothing, so `preserves` is trivial. The two kernel frames are the generated ones; the
  reference's frame is its run with the result dropped.
-/
import proofs.«163684_j48533130445249_1_alg».proof.Defs
import proofs.«163684_j48533130445249_1_alg».proof.Proof.Gen.Kernel
import proofs.«163684_j48533130445249_1_alg».proof.Proof.Gen.Kernel.Skeleton
import proofs.«163684_j48533130445249_1_alg».proof.Proof.Gen.Kernel.Launch
import proofs.«163684_j48533130445249_1_alg».proof.Proof.Gen.Kernel.Points
import proofs.«163684_j48533130445249_1_alg».proof.Proof.Gen.Kernel.Frame
import proofs.«163684_j48533130445249_1_alg».proof.Proof.Gen.KernelIdeal
import proofs.«163684_j48533130445249_1_alg».proof.Proof.Gen.KernelIdeal.Skeleton
import proofs.«163684_j48533130445249_1_alg».proof.Proof.Gen.KernelIdeal.Launch
import proofs.«163684_j48533130445249_1_alg».proof.Proof.Gen.KernelIdeal.Points
import proofs.«163684_j48533130445249_1_alg».proof.Proof.Gen.KernelIdeal.Frame
import proofs.«163684_j48533130445249_1_alg».proof.Proof.Gen.ReferenceIdeal
import proofs.«163684_j48533130445249_1_alg».proof.Proof.Gen.Pre_finite_inputs
import proofs.«163684_j48533130445249_1_alg».proof.Proof.KernelValue
import proofs.«163684_j48533130445249_1_alg».proof.Proof.RefSpec
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the network's result of the arguments, which agree. -/
theorem algebraic : Cert.algebraic_KernelIdeal_ReferenceIdeal := by
  intro m ρ m' ρ' _ hagree
  refine ⟨_, Cert.KernelIdeal.Walk.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.RefValue.res_eq, Cert.ReferenceIdeal.RefSpec.outOf_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
